-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x2048 : Shape := ⟨3, ![32, 2048, 2048]⟩
abbrev S_ : Shape := ⟨0, ![]⟩

class Facts : Prop where
  bcast_S_S32x2048x2048 : S_.BroadcastsInDim S32x2048x2048 (![] : Fin 0 → Fin S32x2048x2048.rank)
  reducesTo_S32x2048x2048_S_d0_1_2 : S32x2048x2048.ReducesTo [0, 1, 2] S_
  h_S_ : 0 < S_.numel

variable [Facts]

def fn {F : FTy → Type} [FloatOps F] (main_arg0 : FVec F S32x2048x2048 .f32) (main_arg1 : FVec F S32x2048x2048 .f32) (main_arg2 : FVec F S32x2048x2048 .f32) : IVec S_ 1 :=
  let main_v0 : FVec F S32x2048x2048 .f32 := Host.absf main_arg0
  let main_cst : FVec F S_ .f32 := constant S_ .f32 0x7F800000#32
  let main_v1 : FVec F S32x2048x2048 .f32 := broadcastInDim S32x2048x2048 ![] bcast_S_S32x2048x2048 main_cst
  let main_v2 : IVec S32x2048x2048 1 := cmpf .olt main_v0 main_v1
  let main_c : IVec S_ 1 := constantI S_ 1 1#1
  let main_v3 : IVec S_ 1 := (fun x v => Host.reduce IntOp.andi x v reducesTo_S32x2048x2048_S_d0_1_2 h_S_) main_v2 main_c
  let main_v4 : FVec F S32x2048x2048 .f32 := Host.absf main_arg1
  let main_cst_0 : FVec F S_ .f32 := constant S_ .f32 0x7F800000#32
  let main_v5 : FVec F S32x2048x2048 .f32 := broadcastInDim S32x2048x2048 ![] bcast_S_S32x2048x2048 main_cst_0
  let main_v6 : IVec S32x2048x2048 1 := cmpf .olt main_v4 main_v5
  let main_c_1 : IVec S_ 1 := constantI S_ 1 1#1
  let main_v7 : IVec S_ 1 := (fun x v => Host.reduce IntOp.andi x v reducesTo_S32x2048x2048_S_d0_1_2 h_S_) main_v6 main_c_1
  let main_v8 : IVec S_ 1 := andi main_v3 main_v7
  let main_v9 : FVec F S32x2048x2048 .f32 := Host.absf main_arg2
  let main_cst_2 : FVec F S_ .f32 := constant S_ .f32 0x7F800000#32
  let main_v10 : FVec F S32x2048x2048 .f32 := broadcastInDim S32x2048x2048 ![] bcast_S_S32x2048x2048 main_cst_2
  let main_v11 : IVec S32x2048x2048 1 := cmpf .olt main_v9 main_v10
  let main_c_3 : IVec S_ 1 := constantI S_ 1 1#1
  let main_v12 : IVec S_ 1 := (fun x v => Host.reduce IntOp.andi x v reducesTo_S32x2048x2048_S_d0_1_2 h_S_) main_v11 main_c_3
  let main_v13 : IVec S_ 1 := andi main_v8 main_v12
  main_v13
-- ==== Kernel.lean ====
abbrev S32x2048x2048 : Shape := ⟨3, ![32, 2048, 2048]⟩
abbrev S1x512x2048 : Shape := ⟨3, ![1, 512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x2048, .f32⟩
  | .hbm, ⟨1, _⟩ => ⟨S32x2048x2048, .f32⟩
  | .hbm, ⟨2, _⟩ => ⟨S32x2048x2048, .f32⟩
  | .hbm, ⟨3, _⟩ => ⟨S32x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | _, _ => ⟨S32x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x2048x2048.size a
  hwx0_0 : ∀ i : grid0.Coords, EltTy.bits .f32 = 32 ∨ (Rect.block (s := S32x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S32x2048x2048.size a
  hwx0_1 : ∀ i : grid0.Coords, EltTy.bits .f32 = 32 ∨ (Rect.block (s := S32x2048x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S32x2048x2048.size a
  hwx0_2 : ∀ i : grid0.Coords, EltTy.bits .f32 = 32 ∨ (Rect.block (s := S32x2048x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .f32 = 32 ∨ (Rect.block (s := S32x2048x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S32x2048x2048 : Shape := ⟨3, ![32, 2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S32x2048x2048, .f32⟩
  | .hbm, ⟨2, _⟩ => ⟨S32x2048x2048, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S32x2048x2048, .f32⟩
  | .hbm, ⟨8, _⟩ => ⟨S32x2048x2048, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)

variable [Facts₀]

class Facts : Prop extends Facts₀ where

variable [Facts]
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.Finite.lean ====
/-
  What the precondition says of the three input arrays, entry by entry.

  The precondition is the conjunction of three tests of one shape,  all(|v| < +∞)  for v = x, a, b:  the array of
  comparisons  |v i| < +∞  reduced by `and` over all three axes from the constant true, and the three results
  joined by `and`.  It is stated as "the result is all ones".  A conjunction that is 1 has both parts 1, and
  each test that is 1 leaves every entry of its array a real number (LibFiniteEntries.lean).  So every entry
  of x, a and b is a real number.
-/
import proofs.«143747_j72834055405766_2_alg».proof.Pre_finite_inputs
import proofs.«143747_j72834055405766_2_alg».proof.Proof.LibFiniteEntries

noncomputable section

namespace Cert.Finite

open Idealize.ShloMosaic Cert.Pre_finite_inputs

variable [hF : Cert.Pre_finite_inputs.Facts]

/-- THE PRECONDITION, READ: all three input arrays hold real numbers only. -/
theorem real_entries (x a b : FVec Ideal S32x2048x2048 .f32)
    (h : Cert.Pre_finite_inputs.fn (F := Ideal) x a b = fun _ => 1#1) :
    (∀ i, ∃ r : ℝ, x i = (r : EReal)) ∧ (∀ i, ∃ r : ℝ, a i = (r : EReal)) ∧ (∀ i, ∃ r : ℝ, b i = (r : EReal)) := by
  have h0 := congrFun h (fun d => d.elim0)
  dsimp only [Cert.Pre_finite_inputs.fn] at h0
  -- (all x ∧ all a) ∧ all b, each conjunction at the one index of the rank-0 result
  obtain ⟨hxa, hb⟩ := IntOp.andi_eq_one.1 h0
  obtain ⟨hx, ha⟩ := IntOp.andi_eq_one.1 hxa
  exact ⟨Cert.LibFiniteEntries.real_of_all x _ _ _ _ _ hx, Cert.LibFiniteEntries.real_of_all a _ _ _ _ _ ha,
    Cert.LibFiniteEntries.real_of_all b _ _ _ _ _ hb⟩

end Cert.Finite

end
-- ==== Proof.Blend.lean ====
/-
  The salt-and-pepper blend on the extended reals, one entry at a time.

  The kernel stores  b + a·(x − b);  the reference computes  x·a + (1 − a)·b.  Over the reals both are
  a·x + b − a·b: distribute a over (x − b) on one side and (1 − a) over b on the other.  On the extended reals
  that distributive step is sound only away from the infinities (∞ − ∞ has a conventional value that the
  two arrangements do not share), so the law is stated for real entries, and the certificate's precondition
  — every input entry finite — is what supplies them.

  Also here: the f32 pattern of the constant 1.0 in the reference's  1 − a  denotes the real number 1.
-/
import Idealize.ShloMosaic.PureOps.Ideal
import Idealize.ShloMosaic.PureOps.Ideal.Laws

namespace Cert.Blend

open Idealize.ShloMosaic

/-- The f32 pattern of 1.0 denotes the real number 1. -/
theorem one_f32 : Ideal.ofBits .f32 0x3F800000#32 = 1 := by
  -- sign 0, exponent 127 = the bias, fraction 0: the value is 2^23 · 2^(−23)
  simp [Ideal.ofBits, Ideal.ieee]
  rw [← EReal.coe_mul, ← EReal.coe_one]
  congr 1
  norm_num

/-- THE LAW: for real x, a, b,  x·a + (1 − a)·b = b + a·(x − b)  as extended reals.  Every operation is on
    real numbers, so each is the coerced real operation, and the identity is the ring identity
    x·a + (1 − a)·b = b + a·(x − b)  of ℝ. -/
theorem blend (x a b : ℝ) :
    (x : EReal) * (a : EReal) + ((1 : EReal) - (a : EReal)) * (b : EReal)
      = (b : EReal) + (a : EReal) * ((x : EReal) - (b : EReal)) := by
  rw [← EReal.coe_one, ← EReal.coe_sub, ← EReal.coe_sub, ← EReal.coe_mul, ← EReal.coe_mul, ← EReal.coe_mul,
    ← EReal.coe_add, ← EReal.coe_add]
  congr 1
  ring

end Cert.Blend
-- ==== Proof.BlendArrays.lean ====
/-
  The blend law for whole arrays.

  Both programs are pointwise: entry i of the result depends on entry i of x, a and b only.  The reference's
  term is  x·a + (1 − a)·b  with the 1 a rank-0 constant broadcast to the arrays' shape, so at every index it
  is the f32 pattern of 1.0, the real number 1.  The kernel's stored value is  b + a·(x − b).  Where the three
  entries are real numbers the two agree (the scalar law), hence the two arrays are equal when all entries are
  real.
-/
import proofs.«143747_j72834055405766_2_alg».proof.Proof.Blend
import Idealize.ShloMosaic.PureOps
import Idealize.ShloMosaic.PureOps.Ideal

noncomputable section

namespace Cert.BlendArrays

open Idealize.ShloMosaic

/-- For arrays x, a, b of one shape whose entries are all real, the reference's
    x·a + (broadcast 1.0 − a)·b  is, index by index, the kernel's  b + a·(x − b). -/
theorem blend_arrays {s : Shape} (hb1 : (⟨0, ![]⟩ : Shape).BroadcastsInDim s (![] : Fin 0 → Fin s.rank))
    (x a b : FVec Ideal s .f32)
    (hx : ∀ i, ∃ r : ℝ, x i = (r : EReal)) (ha : ∀ i, ∃ r : ℝ, a i = (r : EReal))
    (hb : ∀ i, ∃ r : ℝ, b i = (r : EReal)) :
    addf (mulf x a) (mulf (subf (broadcastInDim s ![] hb1 (constant (F := Ideal) ⟨0, ![]⟩ .f32 0x3F800000#32)) a) b)
      = fun i => FloatOps.addf (b i) (FloatOps.mulf (a i) (FloatOps.subf (x i) (b i))) := by
  funext i
  obtain ⟨p, hp⟩ := hx i
  obtain ⟨q, hq⟩ := ha i
  obtain ⟨r, hr⟩ := hb i
  -- every array operation read at index i; the broadcast constant is its pattern's value there
  show x i * a i + (Ideal.ofBits .f32 0x3F800000#32 - a i) * b i = b i + a i * (x i - b i)
  rw [hp, hq, hr, Cert.Blend.one_f32]
  exact Cert.Blend.blend p q r

end Cert.BlendArrays

end
-- ==== Proof.lean ====
/-
  The salt-and-pepper blend: a pointwise kernel  out = b + a·(x − b)  over f32[32, 2048, 2048], one
  [1, 512, 2048] block per grid point, against the reference  x·a + (1 − a)·b.

  The kernel's blocks tile the array and each block is the same pointwise function of the matching input
  blocks, so after the run the output array is  i ↦ b i + a i·(x i − b i)  of the argument arrays (the generated
  value module, imported).  The reference's run ends with  x·a + (1 − a)·b  computed array by array (the
  generated run module, imported).  Over the reals the two are the same polynomial  a·x + b − a·b.  On the
  extended reals the distributive law behind that fails at the infinities, so the precondition — every input
  entry finite — is used: it makes every entry of x, a and b a real number (Finite.lean), and for real
  entries the two arrangements agree (Blend.lean, BlendArrays.lean).

  The three frame claims are the programs' runs with the result forgotten; the idealized kernel is the
  kernel's own text read over the extended reals, no operation rewritten, so there is nothing to preserve
  beyond that.
-/
import proofs.«143747_j72834055405766_2_alg».proof.Defs
import proofs.«143747_j72834055405766_2_alg».proof.Proof.Gen.Kernel.Frame
import proofs.«143747_j72834055405766_2_alg».proof.Proof.Gen.KernelIdeal.Value
import proofs.«143747_j72834055405766_2_alg».proof.Proof.Gen.Pre_finite_inputs
import proofs.«143747_j72834055405766_2_alg».proof.Proof.Gen.ReferenceIdeal.Run
import proofs.«143747_j72834055405766_2_alg».proof.Proof.Finite
import proofs.«143747_j72834055405766_2_alg».proof.Proof.BlendArrays
import Idealize.ShloMosaic.Adequacy
import Idealize.ShloMosaic.Init

noncomputable section

namespace Cert.Proof

open Idealize.ShloMosaic Idealize.SL.Sem

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on x, a and b, both programs end with the same array: the kernel with
    b + a·(x − b)  at every index, the reference with  x·a + (1 − a)·b,  and for the real entries the
    precondition guarantees these are equal. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  -- every entry of the three argument arrays is a real number
  obtain ⟨hx, ha, hb⟩ := Cert.Finite.real_entries _ _ _ (hpre c)
  exact Cert.BlendArrays.blend_arrays _ _ _ _ hx ha hb

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
